-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : FVec F S8388608x2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  main_v8
-- ==== Kernel.lean ====
abbrev S8388608x2 : Shape := ⟨2, ![8388608, 2]⟩
abbrev S2x1x1 : Shape := ⟨3, ![2, 1, 1]⟩
abbrev S524288x2 : Shape := ⟨2, ![524288, 2]⟩
abbrev S1x1x1 : Shape := ⟨3, ![1, 1, 1]⟩
abbrev S1x1 : Shape := ⟨2, ![1, 1]⟩
abbrev S524288 : Shape := ⟨1, ![524288]⟩
abbrev S524288x1 : Shape := ⟨2, ![524288, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S524288x2, .f32⟩
  | .local _ .vmem, ⟨1, _⟩ => ⟨S524288x2, .f32⟩
  | .local _ .vmem, ⟨2, _⟩ => ⟨S524288x2, .f32⟩
  | .local _ .vmem, ⟨3, _⟩ => ⟨S524288x2, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S524288x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S524288x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S524288x2_S524288x2_0_0 : ∀ a, (![0, 0] : Fin 2 → Nat) a + S524288x2.size a ≤ S524288x2.size a
  h_S524288x2 : 0 < S524288x2.numel
  reduces_S524288x2_S524288 : S524288x2.Reduces [1] S524288
  shapeCasts_S524288_S524288x1 : S524288.ShapeCasts S524288x1
  reduces_S524288x1_S1 : S524288x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S524288x2.size a ≤ S8388608x2.size a
  hwx0_0 : ∀ i : grid0.Coords, EltTy.bits .f32 = 32 ∨ (Rect.block (s := S8388608x2) S524288x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S524288x2.size a ≤ S8388608x2.size a
  hwx0_1 : ∀ i : grid0.Coords, EltTy.bits .f32 = 32 ∨ (Rect.block (s := S8388608x2) S524288x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S524288x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S524288x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x2 : Shape := ⟨2, ![8388608, 2]⟩
abbrev S_ : Shape := ⟨0, ![]⟩
abbrev S8388608 : Shape := ⟨1, ![8388608]⟩

abbrev nBuf : Space → Nat
  | .hbm => 11
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S8388608x2, .f32⟩
  | .hbm, ⟨3, _⟩ => ⟨S8388608x2, .f32⟩
  | .hbm, ⟨4, _⟩ => ⟨S_, .f32⟩
  | .hbm, ⟨5, _⟩ => ⟨S8388608, .f32⟩
  | .hbm, ⟨6, _⟩ => ⟨S8388608, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S8388608x2_S8388608_d1 : S8388608x2.ReducesTo [1] S8388608
  h_S_ : 0 < S_.numel
  reducesTo_S8388608_S_d0 : S8388608.ReducesTo [0] S_

variable [Facts₀]

class Facts : Prop extends Facts₀ where

variable [Facts]
-- ==== Proof.CaseValues.lean ====
/-
  What one grid point leaves behind, in each of its three cases, as a value.

  A grid point runs in one of three ways. At the first tile of a half the accumulator is reset to zero and the tile's sum
  is added to that zero. At a middle tile the tile's sum is added to what the accumulator held. At the last tile of a half
  the same is done and the accumulator is then copied into the half's one-element output block. In every case what is
  left is the point's arithmetic applied to the two input blocks and the accumulator's previous contents.
-/
import proofs.«126171_j49331994362452_1_alg».proof.Proof.Gen.KernelIdeal.Frame
import Idealize.ShloMosaic.Lib.Pipeline.Value
import Idealize.ShloMosaic.Lib.Tactic

noncomputable section

namespace Cert.KernelIdeal.CaseValues

open Idealize.ShloMosaic Idealize.ShloMosaic.TcCoe Idealize.SL.Sem Idealize.ShloMosaic.Tactic
open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- First tile of a half: the accumulator ends at the reset value plus the tile's sum. -/
theorem acc_first (c : Dev nD) (i : grid0.Coords) (arg2 : Memref sig .tc .vmem S524288x2 .f32) (harg2 : arg2.IsWhole) (arg3 : Memref sig .tc .vmem S524288x2 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S524288x2 .f32) (x1 : Vec F S524288x2 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) zero2, View.readCov_unit_zero (S := S1x1) _ zero2]
  simp only [View.readAt_eq_ld, harg2.read_unread, harg3.read_unread, View.ld_unit_zero (S := S524288x2) zero2]

/-- Middle tile: the accumulator ends at what it held plus the tile's sum. -/
theorem acc_middle (c : Dev nD) (i : grid0.Coords) (arg2 : Memref sig .tc .vmem S524288x2 .f32) (harg2 : arg2.IsWhole) (arg3 : Memref sig .tc .vmem S524288x2 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S524288x2 .f32) (x1 : Vec F S524288x2 .f32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero zero2]
  simp only [View.readAt_eq_ld, harg2.read_unread, harg3.read_unread, harg5.read_unread,
    View.ld_unit_zero (S := S524288x2) zero2, View.ld_unit_zero (S := S1x1) zero2]

/-- Last tile of a half: the accumulator likewise, -/
theorem acc_last (c : Dev nD) (i : grid0.Coords) (arg2 : Memref sig .tc .vmem S524288x2 .f32) (harg2 : arg2.IsWhole) (arg3 : Memref sig .tc .vmem S524288x2 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S524288x2 .f32) (x1 : Vec F S524288x2 .f32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zero2]
  simp only [View.readAt_eq_ld, harg2.read_unread, harg3.read_unread, harg5.read_unread,
    View.ld_unit_zero (S := S524288x2) zero2, View.ld_unit_zero (S := S1x1) zero2]

/-- and the output block holds a copy of it. -/
theorem out_last (c : Dev nD) (i : grid0.Coords) (arg2 : Memref sig .tc .vmem S524288x2 .f32) (harg2 : arg2.IsWhole) (arg3 : Memref sig .tc .vmem S524288x2 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S524288x2 .f32) (x1 : Vec F S524288x2 .f32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zero3, View.readCov_unit_zero (S := S1x1) _ zero2]
  simp only [View.readAt_eq_ld, harg2.read_unread, harg3.read_unread, harg5.read_unread,
    View.ld_unit_zero (S := S524288x2) zero2, View.ld_unit_zero (S := S1x1) zero2]

end Cert.KernelIdeal.CaseValues

end
-- ==== Proof.TileValue.lean ====
/-
  One grid point's arithmetic, read on the extended reals.

  A grid point holds two blocks of 524288 points of the plane and a one-element accumulator. Its arithmetic takes, row by
  row, the square root of the sum over the two coordinates of the squared difference, sums that over the block's rows, and
  adds the result to the accumulator. Since every vector between the row sums and the stored value has one element, each
  is written here as the constant vector of its element: the reshapes between one-element shapes then do nothing.
-/
import proofs.«126171_j49331994362452_1_alg».proof.Proof.Gen.KernelIdeal.Skeleton
import Idealize.ShloMosaic.Lib.ValueIdx
import Idealize.ShloMosaic.Lib.Pipeline.Value
import Idealize.ShloMosaic.PureOps.Ideal.Laws

open scoped BigOperators

noncomputable section

namespace Cert.KernelIdeal.TileValue

open Idealize.ShloMosaic Idealize.ShloMosaic.ValueIdx Cert.KernelIdeal Cert.KernelIdeal.Gen

/-- The distance between the points in row r of two blocks. -/
def rowTerm (x0 x1 : FVec Ideal S524288x2 .f32) (r : Fin 524288) : EReal :=
  Ideal.sqrt (∑ k : Fin 2, mulf (subf x0 x1) (subf x0 x1) (ix2 r k))

/-- Spelled out: the square root of the sum over the two coordinates of the squared difference. -/
theorem rowTerm_eq (x0 x1 : FVec Ideal S524288x2 .f32) (r : Fin 524288) :
    rowTerm x0 x1 r = Ideal.sqrt (∑ k : Fin 2, (x0 (ix2 r k) - x1 (ix2 r k)) * (x0 (ix2 r k) - x1 (ix2 r k))) := rfl

/-- The sum of those distances over the rows of the two blocks. -/
def tile (x0 x1 : FVec Ideal S524288x2 .f32) : EReal := ∑ r : Fin 524288, rowTerm x0 x1 r

/-- A square root of a vector, read at an index. -/
theorem sqrt_apply {s : Shape} (v : FVec Ideal s .f32) (i : s.Idx) : sqrt v i = Ideal.sqrt (v i) := rfl

/-- A sum along the two coordinates, read at row r. -/
theorem coordSum_apply (v : FVec Ideal S524288x2 .f32) (hφ : FKind.Formats FTy.f32)
    (hacc : (0x00000000#32 : BitVec 32) = FKind.add.neutral .f32 hφ) (r : Fin 524288) :
    multiReduction (F := Ideal) .add [1] S524288 v 0x00000000#32 reduces_S524288x2_S524288 hφ hacc (ix1 r)
      = ∑ k : Fin 2, v (ix2 r k) := by
  refine (Ideal.multiReduction_add_single v 0x00000000#32 reduces_S524288x2_S524288 hφ hacc (ix1 r)).trans ?_
  refine Finset.sum_congr rfl fun k _ => congrArg v ?_
  exact funext fun a => Fin.ext (by match a with | ⟨0, _⟩ => rfl | ⟨1, _⟩ => rfl)

/-- A vector of 524288 entries reshaped to one column reads, at row r of the column, entry r. -/
theorem column_apply {α : Type} (v : S524288.Idx → α) (r : Fin 524288) (z : Fin 1) :
    shapeCast S524288x1 v shapeCasts_S524288_S524288x1 (ix2 r z) = v (ix1 r) := by
  refine shapeCast_apply v shapeCasts_S524288_S524288x1 (ix2 r z) (ix1 r) ?_
  rw [Shape.rowMajor_val_one, Shape.rowMajor_val_two]
  have hz : z.val = 0 := by have := z.isLt; omega
  show r.val = r.val * 1 + z.val
  omega

/-- A sum down the rows of a column, read at its one entry. -/
theorem rowSum_apply (v : FVec Ideal S524288x1 .f32) (hφ : FKind.Formats FTy.f32)
    (hacc : (0x00000000#32 : BitVec 32) = FKind.add.neutral .f32 hφ) (j : S1.Idx) :
    multiReduction (F := Ideal) .add [0] S1 v 0x00000000#32 reduces_S524288x1_S1 hφ hacc j
      = ∑ r : Fin 524288, v (ix2 r (j 0)) := by
  refine (Ideal.multiReduction_add_single v 0x00000000#32 reduces_S524288x1_S1 hφ hacc j).trans ?_
  refine Finset.sum_congr rfl fun r _ => congrArg v ?_
  exact funext fun a => Fin.ext (by match a with | ⟨0, _⟩ => rfl | ⟨1, _⟩ => rfl)

/-- The stored accumulator: what it held plus the tile's sum. -/
theorem pay2_const (x0 x1 : FVec Ideal S524288x2 .f32) (a : EReal) :
    k0_pay2 (F := Ideal) x0 x1 (broadcast S1x1 a) = broadcast S1x1 (a + tile x0 x1) := by
  funext j
  unfold k0_pay2
  rw [shapeCast_self]
  refine (addf_apply _ _ j).trans ?_
  refine congrArg (a + ·) ?_
  -- the reshaped row sum at the one entry
  refine (shapeCast_apply _ shapeCasts_S1_S1x1 j (ix1 (j 0)) ?_).trans ?_
  · rw [Shape.rowMajor_val_one, Shape.rowMajor_val_two]
    have h0 : (j 0).val < 1 := idx2_lt0 j
    have h1 : (j 1).val < 1 := idx2_lt1 j
    show ((ix1 (j 0) : S1.Idx) 0).val = (j 0).val * 1 + (j 1).val
    show (j 0).val = (j 0).val * 1 + (j 1).val
    omega
  refine (rowSum_apply _ _ _ (ix1 (j 0))).trans ?_
  refine Finset.sum_congr rfl fun r _ => ?_
  refine (sqrt_apply _ _).trans ?_
  refine congrArg Ideal.sqrt ?_
  refine (column_apply _ r _).trans ?_
  exact coordSum_apply _ _ _ r

/-- The reset stores the zero vector. -/
theorem pay1_const : k0_pay1 (F := Ideal) = broadcast S1x1 (0 : EReal) := by
  show shapeCast S1x1 (broadcast S1x1 (Scalar.ofBits (F := Ideal) .f32 0x00000000#32)) shapeCasts_S1x1_S1x1 = _
  rw [shapeCast_self]
  funext j
  exact Ideal.ofBits_zero_f32

/-- The accumulator copied into the one-element output block. -/
theorem pay3_const (a : EReal) : k0_pay3 (F := Ideal) (broadcast S1x1 a) = broadcast S1x1x1 a := rfl

/-- First tile of a half, the tile's sum known: zero plus it. -/
theorem first_const (x0 x1 : FVec Ideal S524288x2 .f32) (T : EReal) (hT : tile x0 x1 = T) :
    k0_pay2 (F := Ideal) x0 x1 (k0_pay1 (F := Ideal)) = broadcast S1x1 (0 + T) := by
  rw [pay1_const, pay2_const, hT]

/-- A later tile, the accumulator's contents and the tile's sum known: their sum. -/
theorem next_const (x0 x1 : FVec Ideal S524288x2 .f32) (xs0 : FVec Ideal S1x1 .f32) (a T : EReal)
    (ha : xs0 = broadcast S1x1 a) (hT : tile x0 x1 = T) :
    k0_pay2 (F := Ideal) x0 x1 xs0 = broadcast S1x1 (a + T) := by
  rw [ha, pay2_const, hT]

/-- The copy of that into the output block. -/
theorem copy_const (x0 x1 : FVec Ideal S524288x2 .f32) (xs0 : FVec Ideal S1x1 .f32) (a T : EReal)
    (ha : xs0 = broadcast S1x1 a) (hT : tile x0 x1 = T) :
    k0_pay3 (F := Ideal) (k0_pay2 (F := Ideal) x0 x1 xs0) = broadcast S1x1x1 (a + T) := by
  rw [next_const x0 x1 xs0 a T ha hT]
  rfl

end Cert.KernelIdeal.TileValue

end
-- ==== Proof.LibBlockSums.lean ====
/-
  A sum over consecutive rows, cut into blocks.

  The rows 0 … A·B − 1 are A consecutive blocks of B rows, row a·B + b being row b of block a; a sum over the rows is the
  sum over the blocks of the sums over each block's rows, and so is a sum restricted to the rows that satisfy a
  predicate (the rows of one class): it is the sum over the blocks of the sums over each block's rows of the class.
  The same from a base row on, and for a stretch of rows cut in two. These are the regroupings behind "every worker
  sums its own rows, the partial sums are added up": no order or grouping is left in a sum of a commutative monoid.
-/
import Idealize.ShloMosaic.PureOps.Ideal

open scoped BigOperators

namespace Cert.LibBlockSums

variable {M : Type*} [AddCommMonoid M]

/-- A·B consecutive rows as A blocks of B. -/
theorem sum_range_mul (A B : ℕ) (f : ℕ → M) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- The rows of a class among A·B consecutive rows, block by block. -/
theorem sum_filter_range_mul (A B : ℕ) (p : ℕ → Prop) [DecidablePred p] (f : ℕ → M) :
    ∑ n ∈ (Finset.range (A * B)).filter p, f n
      = ∑ a ∈ Finset.range A, ∑ b ∈ (Finset.range B).filter (fun b => p (a * B + b)), f (a * B + b) := by
  rw [Finset.sum_filter, sum_range_mul]
  refine Finset.sum_congr rfl fun a _ => ?_
  rw [Finset.sum_filter]

/-- The same for the rows base … base + A·B − 1. -/
theorem sum_filter_range_mul_from (base A B : ℕ) (p : ℕ → Prop) [DecidablePred p] (f : ℕ → M) :
    ∑ n ∈ (Finset.range (A * B)).filter (fun n => p (base + n)), f (base + n)
      = ∑ a ∈ Finset.range A, ∑ b ∈ (Finset.range B).filter (fun b => p (base + (a * B + b))), f (base + (a * B + b)) :=
  sum_filter_range_mul A B (fun n => p (base + n)) (fun n => f (base + n))

/-- A stretch of rows cut in two: the first N₁ rows and the N₂ rows after them. -/
theorem sum_filter_range_add (N₁ N₂ : ℕ) (p : ℕ → Prop) [DecidablePred p] (f : ℕ → M) :
    ∑ n ∈ (Finset.range (N₁ + N₂)).filter p, f n
      = ∑ n ∈ (Finset.range N₁).filter p, f n + ∑ n ∈ (Finset.range N₂).filter (fun n => p (N₁ + n)), f (N₁ + n) := by
  rw [Finset.sum_filter, Finset.sum_range_add, Finset.sum_filter, Finset.sum_filter]

/-- A sum over the rows of a class as a sum over all rows of the row's term or zero: the form an accumulating scatter
    reads at one element. -/
theorem sum_filter_eq_sum_ite (N : ℕ) (p : ℕ → Prop) [DecidablePred p] (f : ℕ → M) :
    ∑ n ∈ (Finset.range N).filter p, f n = ∑ n ∈ Finset.range N, (if p n then f n else 0) :=
  Finset.sum_filter _ _

/-- A sum over `Fin N` is the sum over the first N natural numbers of any extension of the summand. -/
theorem sum_fin_eq_sum_range (N : ℕ) (f : ℕ → M) : ∑ n : Fin N, f n.val = ∑ n ∈ Finset.range N, f n :=
  Fin.sum_univ_eq_sum_range f N

end Cert.LibBlockSums
-- ==== Proof.DistSpec.lean ====
/-
  The mean Euclidean distance of two arrays of 8388608 planar points, as arithmetic on the extended reals.

  Row r contributes rowDist r = sqrt((x r 0 - y r 0)^2 + (x r 1 - y r 1)^2). The rows are cut into 16 tiles of
  524288 consecutive rows; an accumulator is reset at tiles 0 and 8 and otherwise adds the tile's sum to what it held, so
  after tile 8p + 7 it holds the sum over the eight tiles of half p, and the two halves together are the sum over all rows:
  nothing but the associativity and commutativity of addition, which hold on the extended reals without any finiteness.
-/
import Idealize.ShloMosaic.PureOps.Ideal
import Idealize.ShloMosaic.Lib.ValueIdx
import proofs.«126171_j49331994362452_1_alg».proof.Proof.LibBlockSums

open scoped BigOperators

noncomputable section

namespace Cert.DistSpec

open Idealize.ShloMosaic Idealize.ShloMosaic.ValueIdx

/-- An array of 8388608 points of the plane. -/
abbrev Pts : Type := (⟨2, ![8388608, 2]⟩ : Shape).Idx → EReal

variable (x y : Pts)

/-- The distance between point r of x and point r of y. -/
def rowDist (r : Fin 8388608) : EReal :=
  Ideal.sqrt (∑ k : Fin 2, (x (ix2 r k) - y (ix2 r k)) * (x (ix2 r k) - y (ix2 r k)))

/-- The same for a row given as a natural number, zero past the last row. -/
def dist (n : ℕ) : EReal := if h : n < 8388608 then rowDist x y ⟨n, h⟩ else 0

theorem dist_of_lt (n : ℕ) (h : n < 8388608) : dist x y n = rowDist x y ⟨n, h⟩ := dif_pos h

/-- The sum of the distances over the 524288 rows of tile j. -/
def tileSum (j : ℕ) : EReal := ∑ r ∈ Finset.range 524288, dist x y (j * 524288 + r)

/-- What the accumulator holds after tile n: reset to zero before every eighth tile, the tile's sum added. -/
def acc : ℕ → EReal
  | 0 => 0 + tileSum x y 0
  | n + 1 => if (n + 1) % 8 = 0 then 0 + tileSum x y (n + 1) else acc n + tileSum x y (n + 1)

/-- After tile n the accumulator holds the sum over the tiles of n's group of eight up to n. -/
theorem acc_closed (n : ℕ) : acc x y n = ∑ g ∈ Finset.range (n % 8 + 1), tileSum x y (n / 8 * 8 + g) := by
  induction n with
  | zero => simp [acc]
  | succ n ih =>
    rw [acc]
    by_cases h : (n + 1) % 8 = 0
    · have e : (n + 1) / 8 * 8 + 0 = n + 1 := by omega
      rw [if_pos h, h, zero_add, Finset.sum_range_one, e]
    · rw [if_neg h, ih]
      have h1 : (n + 1) % 8 + 1 = (n % 8 + 1) + 1 := by omega
      have h2 : (n + 1) / 8 = n / 8 := by omega
      have e : n / 8 * 8 + (n % 8 + 1) = n + 1 := by omega
      rw [h1, Finset.sum_range_succ _ (n % 8 + 1), h2, e]

/-- After the last tile of half p it holds the sum over the half's eight tiles. -/
theorem acc_last (p : ℕ) : acc x y (p * 8 + 7) = ∑ g ∈ Finset.range 8, tileSum x y (p * 8 + g) := by
  rw [acc_closed]
  have h1 : (p * 8 + 7) % 8 + 1 = 8 := by omega
  have h2 : (p * 8 + 7) / 8 * 8 = p * 8 := by omega
  rw [h1, h2]

/-- The sum of the distances over all rows. -/
def total : EReal := ∑ n ∈ Finset.range 8388608, dist x y n

/-- The two halves' accumulators add up to the sum over all rows. -/
theorem halves_total : ∑ p ∈ Finset.range 2, acc x y (p * 8 + 7) = total x y := by
  unfold total
  rw [show (8388608 : ℕ) = 2 * 8 * 524288 from by norm_num, Cert.LibBlockSums.sum_range_mul (2 * 8) 524288,
    Cert.LibBlockSums.sum_range_mul 2 8]
  exact Finset.sum_congr rfl fun p _ => acc_last x y p

/-- The sum over all rows, the rows taken as a finite type. -/
theorem sum_rowDist : ∑ r : Fin 8388608, rowDist x y r = total x y := by
  unfold total
  rw [← Fin.sum_univ_eq_sum_range (fun n => dist x y n) 8388608]
  exact Finset.sum_congr rfl fun r _ => (dist_of_lt x y r.val r.isLt).symm

/-- The mean distance as both programs form it: the sum over all rows divided by 8388609, the divisor being the
    value of the 32-bit float word 0x4B000001. -/
def mean : EReal := Ideal.div (total x y) (Ideal.ofBits .f32 0x4B000001#32)

end Cert.DistSpec

end
-- ==== Proof.PointValue.lean ====
/-
  The grid, point by point: what the accumulator and the output hold after each point, and the output array after the run.

  Point t of the sixteen reads rows 524288·t … 524288·t + 524287 of both argument arrays, so the sum its arithmetic adds
  is tile t's. By induction on the point the accumulator after point t holds what the arithmetic of the specification
  says it holds after tile t; at the last point of a half (t = 8p + 7) the output block, entry p of the two-entry output
  array, receives a copy. Those two points write both entries, so after the run the output array holds the two halves' sums.
-/
import proofs.«126171_j49331994362452_1_alg».proof.Proof.CaseValues
import proofs.«126171_j49331994362452_1_alg».proof.Proof.TileValue
import proofs.«126171_j49331994362452_1_alg».proof.Proof.DistSpec

open scoped BigOperators

noncomputable section

namespace Cert.KernelIdeal.PointValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.TileValue Cert.DistSpec

variable (m : (ℓ : Loc nD τ sig) → Buf (Elt Ideal) ℓ)

/-- The two argument arrays on core c. -/
abbrev argX (c : Dev nD) : Pts := m ((c : Thread nD τ).loc main_arg0)
abbrev argY (c : Dev nD) : Pts := m ((c : Thread nD τ).loc main_arg1)

/-! ## Where the blocks lie -/

/-- Point t's block of the first argument is block (t, 0); -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- of the second argument likewise; -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- and its output block is entry t / 8 of the output array. -/
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

theorem point_lt (t : Fin cfg0.N) : t.val < 16 := lt_of_lt_of_eq t.isLt (show cfg0.N = 16 from N_0)

/-- Row r of point t's blocks is a row of the arrays. -/
theorem row_lt (t : Fin cfg0.N) (r : Fin 524288) : t.val * 524288 + r.val < 8388608 := by
  have := point_lt t; have := r.isLt; omega

/-- Point t's block of the first argument, at row r, is the argument at row 524288·t + r. -/
theorem block0_apply (c : Dev nD) (t : Fin cfg0.N) (r : Fin 524288) (k : Fin 2) :
    (iblk m c 0 t : FVec Ideal S524288x2 .f32) (ix2 r k) = argX m c (ix2 ⟨t.val * 524288 + r.val, row_lt t r⟩ k) := by
  have hi := index0 t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 524288 + 1 * r.val = t.val * 524288 + r.val; rw [hi.1]; omega
  | ⟨1, _⟩ => show win0_0.index t (1 : Fin 2) * 2 + 1 * k.val = k.val; rw [hi.2]; omega

/-- The same for the second argument. -/
theorem block1_apply (c : Dev nD) (t : Fin cfg0.N) (r : Fin 524288) (k : Fin 2) :
    (iblk m c 1 t : FVec Ideal S524288x2 .f32) (ix2 r k) = argY m c (ix2 ⟨t.val * 524288 + r.val, row_lt t r⟩ k) := by
  have hi := index1 t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 524288 + 1 * r.val = t.val * 524288 + r.val; rw [hi.1]; omega
  | ⟨1, _⟩ => show win0_1.index t (1 : Fin 2) * 2 + 1 * k.val = k.val; rw [hi.2]; omega

/-- A row of two blocks that are rows R of two arrays has the arrays' distance at R. -/
theorem rowTerm_of_rows (b0 b1 : FVec Ideal S524288x2 .f32) (x y : Pts) (r : Fin 524288) (R : Fin 8388608)
    (h0 : ∀ k, b0 (ix2 r k) = x (ix2 R k)) (h1 : ∀ k, b1 (ix2 r k) = y (ix2 R k)) :
    rowTerm b0 b1 r = rowDist x y R := by
  refine (rowTerm_eq b0 b1 r).trans ?_
  unfold rowDist
  refine congrArg Ideal.sqrt (Finset.sum_congr rfl fun k _ => ?_)
  rw [h0 k, h1 k]

/-- The sum point t's arithmetic adds is tile t's. -/
theorem tile_blocks (c : Dev nD) (t : Fin cfg0.N) :
    tile (iblk m c 0 t) (iblk m c 1 t) = tileSum (argX m c) (argY m c) t.val := by
  unfold tile tileSum
  rw [← Fin.sum_univ_eq_sum_range (fun r => dist (argX m c) (argY m c) (t.val * 524288 + r)) 524288]
  refine Finset.sum_congr rfl fun r _ => ?_
  rw [dist_of_lt _ _ _ (row_lt t r)]
  exact rowTerm_of_rows (iblk m c 0 t) (iblk m c 1 t) (argX m c) (argY m c) r ⟨t.val * 524288 + r.val, row_lt t r⟩
    (block0_apply m c t r) (block1_apply m c t r)

/-! ## The three cases at a point of the grid -/

theorem first_val (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) scM0_0 (Memref.isWhole_whole _) hc0 hc1 (iblk m c 0 t) (iblk m c 1 t)
      = broadcast S1x1 (0 + tileSum (argX m c) (argY m c) t.val) :=
  (CaseValues.acc_first (F := Ideal) c (grid0.coords t) (ms0_0 t) (hs0_0 t) (ms0_1 t) (hs0_1 t) (ms0_2 t) (hs0_2 t) scM0_0 (Memref.isWhole_whole _) hc0 hc1 (iblk m c 0 t) (iblk m c 1 t)).trans
    (first_const (iblk m c 0 t) (iblk m c 1 t) _ (tile_blocks m c t))

theorem middle_val (c : Dev nD) (t : Fin cfg0.N) (hc0 : ¬cond0_0 (grid0.coords t)) (hc1 : ¬cond0_1 (grid0.coords t))
    (xs0 : Vec Ideal S1x1 .f32) (a : EReal) (ha : xs0 = broadcast S1x1 a) :
    sout0_B_0 c (grid0.coords t) (ms0_0 t) (hs0_0 t) (ms0_1 t) (hs0_1 t) (ms0_2 t) (hs0_2 t) scM0_0 (Memref.isWhole_whole _) hc0 hc1 (iblk m c 0 t) (iblk m c 1 t) xs0
      = broadcast S1x1 (a + tileSum (argX m c) (argY m c) t.val) :=
  (CaseValues.acc_middle (F := Ideal) c (grid0.coords t) (ms0_0 t) (hs0_0 t) (ms0_1 t) (hs0_1 t) (ms0_2 t) (hs0_2 t) scM0_0 (Memref.isWhole_whole _) hc0 hc1 (iblk m c 0 t) (iblk m c 1 t) xs0).trans
    (next_const (iblk m c 0 t) (iblk m c 1 t) xs0 a _ ha (tile_blocks m c t))

theorem last_val (c : Dev nD) (t : Fin cfg0.N) (hc0 : ¬cond0_0 (grid0.coords t)) (hc1 : cond0_1 (grid0.coords t))
    (xs0 : Vec Ideal S1x1 .f32) (a : EReal) (ha : xs0 = broadcast S1x1 a) :
    sout0_C_0 c (grid0.coords t) (ms0_0 t) (hs0_0 t) (ms0_1 t) (hs0_1 t) (ms0_2 t) (hs0_2 t) scM0_0 (Memref.isWhole_whole _) hc0 hc1 (iblk m c 0 t) (iblk m c 1 t) xs0
      = broadcast S1x1 (a + tileSum (argX m c) (argY m c) t.val) :=
  (CaseValues.acc_last (F := Ideal) c (grid0.coords t) (ms0_0 t) (hs0_0 t) (ms0_1 t) (hs0_1 t) (ms0_2 t) (hs0_2 t) scM0_0 (Memref.isWhole_whole _) hc0 hc1 (iblk m c 0 t) (iblk m c 1 t) xs0).trans
    (next_const (iblk m c 0 t) (iblk m c 1 t) xs0 a _ ha (tile_blocks m c t))

theorem last_out (c : Dev nD) (t : Fin cfg0.N) (hc0 : ¬cond0_0 (grid0.coords t)) (hc1 : cond0_1 (grid0.coords t))
    (xs0 : Vec Ideal S1x1 .f32) (a : EReal) (ha : xs0 = broadcast S1x1 a) :
    out0_C_2 c (grid0.coords t) (ms0_0 t) (hs0_0 t) (ms0_1 t) (hs0_1 t) (ms0_2 t) (hs0_2 t) scM0_0 (Memref.isWhole_whole _) hc0 hc1 (iblk m c 0 t) (iblk m c 1 t) xs0
      = broadcast S1x1x1 (a + tileSum (argX m c) (argY m c) t.val) :=
  (CaseValues.out_last (F := Ideal) c (grid0.coords t) (ms0_0 t) (hs0_0 t) (ms0_1 t) (hs0_1 t) (ms0_2 t) (hs0_2 t) scM0_0 (Memref.isWhole_whole _) hc0 hc1 (iblk m c 0 t) (iblk m c 1 t) xs0).trans
    (copy_const (iblk m c 0 t) (iblk m c 1 t) xs0 a _ ha (tile_blocks m c t))

/-! ## The accumulator after each point -/

/-- After point n the accumulator holds what the specification's accumulator holds after tile n. -/
theorem scratch_after (c : Dev nD) : ∀ (n : ℕ) (h : n < cfg0.N),
    (outsAt0 m c n h).2 = broadcast S1x1 (acc (argX m c) (argY m c) n)
  | 0, h => by
    have h0 : (⟨0, h⟩ : Fin cfg0.N).val % 8 = 0 := rfl
    have h1 : ¬(⟨0, h⟩ : Fin cfg0.N).val % 8 = 7 := (show ¬(0 : ℕ) % 8 = 7 by decide)
    rw [show outsAt0 m c 0 h = _ from outsAt0_A m c ⟨0, h⟩ h0 h1]
    exact first_val m c ⟨0, h⟩ ((hcond0_0 _).mpr h0) (fun hh => h1 ((hcond0_1 _).mp hh))
  | n + 1, h => by
    by_cases h0 : (n + 1) % 8 = 0
    · have h1 : ¬(n + 1) % 8 = 7 := by omega
      rw [show outsAt0 m c (n + 1) h = _ from outsAt0_A m c ⟨n + 1, h⟩ h0 h1, acc, if_pos h0]
      exact first_val m c ⟨n + 1, h⟩ ((hcond0_0 _).mpr h0) (fun hh => h1 ((hcond0_1 _).mp hh))
    · by_cases h1 : (n + 1) % 8 = 7
      · rw [show outsAt0 m c (n + 1) h = _ from outsAt0_C m c ⟨n + 1, h⟩ h0 h1, acc, if_neg h0]
        exact last_val m c ⟨n + 1, h⟩ (fun hh => h0 ((hcond0_0 _).mp hh)) ((hcond0_1 _).mpr h1) _ _
          (scratch_after c n (Nat.lt_of_succ_lt h))
      · rw [show outsAt0 m c (n + 1) h = _ from outsAt0_B m c ⟨n + 1, h⟩ h0 h1, acc, if_neg h0]
        exact middle_val m c ⟨n + 1, h⟩ (fun hh => h0 ((hcond0_0 _).mp hh)) (fun hh => h1 ((hcond0_1 _).mp hh)) _ _
          (scratch_after c n (Nat.lt_of_succ_lt h))

/-- After the last point of a half the output block holds the same. -/
theorem out_after (c : Dev nD) (t : Fin cfg0.N) (h7 : t.val % 8 = 7) :
    (outsAt0 m c t.val t.isLt).1 = broadcast S1x1x1 (acc (argX m c) (argY m c) t.val) := by
  obtain ⟨n, hn⟩ := t
  cases n with
  | zero => exact absurd h7 (show ¬(0 : ℕ) % 8 = 7 by decide)
  | succ n =>
    have h7' : (n + 1) % 8 = 7 := h7
    have h0 : ¬(n + 1) % 8 = 0 := by omega
    rw [show outsAt0 m c (n + 1) hn = _ from outsAt0_C m c ⟨n + 1, hn⟩ h0 h7', acc, if_neg h0]
    exact last_out m c ⟨n + 1, hn⟩ (fun hh => h0 ((hcond0_0 _).mp hh)) ((hcond0_1 _).mpr h7') _ _
      (scratch_after m c n (Nat.lt_of_succ_lt hn))

end Cert.KernelIdeal.PointValue

end
-- ==== Proof.KernelRun.lean ====
/-
  The kernel's whole run, read as a value.

  Only the last point of each half writes its output block back, and the two blocks are the two entries of the output
  array, so after the sixteen points the array holds the two halves' sums. The lines after the grid add the two entries to
  zero and divide by 8388609; that quotient is the program's result.
-/
import proofs.«126171_j49331994362452_1_alg».proof.Proof.PointValue
import Idealize.ShloMosaic.Lib.Pipeline.Value
import Idealize.ShloMosaic.Lib.StableHlo.Run
import Idealize.ShloMosaic.Lib.Tactic

open scoped BigOperators

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.PointValue Cert.DistSpec

variable (m : (ℓ : Loc nD τ sig) → Buf (Elt Ideal) ℓ) (ρ : Dev nD → PrngReg)

/-- The output array after the run: entry p holds what the accumulator held after the last tile of half p. -/
def halves (c : Dev nD) : FVec Ideal S2x1x1 .f32 :=
  fun j => acc (argX m c) (argY m c) ((j 0).val * 8 + 7)

/-- What a point that writes back writes is its block of that array. -/
theorem flushed_eq (c : Dev nD) (t : Fin cfg0.N) (hf : (cfg0.win 2).flush t = true) :
    (dats m 0 c).flushed 2 t = ((cfg0.win 2).blk t).view.read (Elt Ideal) (halves m c) := by
  have h7 : t.val % 8 = 7 := (flush0_2 t).mp hf
  show (cfg0.win 2).cut (grid0.coords t) ((dats m 0 c).after 2 t) = _
  rw [after0_2, out_after m c t h7]
  funext y
  show acc (argX m c) (argY m c) t.val = halves m c (((cfg0.win 2).blk t).view.emb y)
  unfold halves
  congr 1
  show t.val = (win0_2.index t (0 : Fin 3) * 1 + 1 * (y 0).val) * 8 + 7
  have hy : (y 0).val < 1 := (y 0).isLt
  rw [(index2 t).1]; omega

/-- Every entry of the output array lies in the block of a point that writes back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 16 := N_0
  have hi : (i 0).val < 2 := (i 0).isLt
  have h1 : (i 1).val < 1 := (i 1).isLt
  have h2 : (i 2).val < 1 := (i 2).isLt
  have hlt : (i 0).val * 8 + 7 < cfg0.N := by omega
  obtain ⟨e0, e1, e2⟩ := index2 ⟨(i 0).val * 8 + 7, hlt⟩
  have ht : (⟨(i 0).val * 8 + 7, hlt⟩ : Fin cfg0.N).val = (i 0).val * 8 + 7 := rfl
  refine ⟨⟨(i 0).val * 8 + 7, hlt⟩, (flush0_2 _).mpr (by rw [ht]; omega), ?_⟩
  show i ∈ ((View.whole main_v0).slice (win0_2.rect ⟨(i 0).val * 8 + 7, hlt⟩)).set
  rw [View.set_slice_whole, Rect.mem_set_unit]
  intro a
  match a with
  | ⟨0, _⟩ =>
    show win0_2.index ⟨(i 0).val * 8 + 7, hlt⟩ (0 : Fin 3) * 1 ≤ (i 0).val ∧ (i 0).val < win0_2.index ⟨(i 0).val * 8 + 7, hlt⟩ (0 : Fin 3) * 1 + 1
    rw [e0, ht]; omega
  | ⟨1, _⟩ =>
    show win0_2.index ⟨(i 0).val * 8 + 7, hlt⟩ (1 : Fin 3) * 1 ≤ (i 1).val ∧ (i 1).val < win0_2.index ⟨(i 0).val * 8 + 7, hlt⟩ (1 : Fin 3) * 1 + 1
    rw [e1]; omega
  | ⟨2, _⟩ =>
    show win0_2.index ⟨(i 0).val * 8 + 7, hlt⟩ (2 : Fin 3) * 1 ≤ (i 2).val ∧ (i 2).val < win0_2.index ⟨(i 0).val * 8 + 7, hlt⟩ (2 : Fin 3) * 1 + 1
    rw [e2]; omega

/-- So after the run the output array holds the two halves' sums. -/
theorem final (c : Dev nD) : (dats m 0 c).arrAt 2 cfg0.N = halves m c :=
  (dats m 0 c).arrAt_eq_of_cover 2 (halves m c) (flushed_eq m c) (covered c)

/-- The lines after the grid, as one function of the output array: its entries added to zero, the sum divided by 8388609. -/
def meanOf (v : FVec Ideal S2x1x1 .f32) : FVec Ideal S_ .f32 :=
  Host.divf (F := Ideal)
    (Host.reduceAdd (F := Ideal) v (constant (F := Ideal) S_ .f32 0x00000000#32) reducesTo_S2x1x1_S_d0_1_2 h_S_)
    (constant (F := Ideal) S_ .f32 0x4B000001#32)

/-- The program's result buffer after those lines. -/
theorem tail_eq (c : Dev nD) :
    Pipeline.afterTail₀ cfgs (dats m) 0 (V0 m) [hostOps1] c main_v2 = meanOf (halves m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = halves m c :=
    (Pipeline.withArrays_arr spec0 launch0.win.arr_inj c _ _ 2).trans (final m c)
  exact congrArg meanOf e

/-- The run: every weakly fair execution ends with the result buffer at the mean of the two halves' sums and the two
    argument arrays as they were. -/
theorem run : θ_run defs (onTc (τ := τ) (main (F := Ideal))) ⟨m, fun _ => 0, ρ⟩ fun r => ∀ c : Dev nD,
      r.2.mem ((c : Thread nD τ).loc main_v2) = meanOf (halves m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.Bridge.lean ====
/-
  The kernel's result is the mean distance.

  The lines after the grid add the two entries of the output array to zero and divide by 8388609. The two entries are the
  two halves' sums, which together are the sum over all rows; adding to zero changes nothing; so the quotient is the
  specification's mean, the value the reference computes.
-/
import proofs.«126171_j49331994362452_1_alg».proof.Proof.KernelRun
import Idealize.ShloMosaic.PureOps.Ideal.Laws

open scoped BigOperators

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.PointValue Cert.KernelIdeal.KernelRun Cert.DistSpec

variable (m : (ℓ : Loc nD τ sig) → Buf (Elt Ideal) ℓ)

/-- The entries of the two-entry output array, as a finite type. -/
def halfEquiv : S2x1x1.Idx ≃ Fin 2 where
  toFun j := j 0
  invFun p := ix3 p 0 0
  left_inv j := by
    funext a
    match a with
    | ⟨0, _⟩ => rfl
    | ⟨1, _⟩ => exact Fin.ext (by have h : (j 1).val < 1 := (j 1).isLt; show (0 : ℕ) = (j 1).val; omega)
    | ⟨2, _⟩ => exact Fin.ext (by have h : (j 2).val < 1 := (j 2).isLt; show (0 : ℕ) = (j 2).val; omega)
  right_inv _ := rfl

/-- The lines after the grid at the result's one index: zero plus the sum of the array's entries, divided by 8388609. -/
theorem meanOf_apply (v : FVec Ideal S2x1x1 .f32) (i : S_.Idx) :
    meanOf v i = Ideal.div (Ideal.ofBits .f32 0x00000000#32 + ∑ j : S2x1x1.Idx, v j) (Ideal.ofBits .f32 0x4B000001#32) := by
  have hs : Host.reduceAdd (F := Ideal) v (constant (F := Ideal) S_ .f32 0x00000000#32) reducesTo_S2x1x1_S_d0_1_2 h_S_ i
      = Ideal.ofBits .f32 0x00000000#32 + ∑ j : S2x1x1.Idx, v j := by
    simp only [Host.reduceAdd, Ideal.hostReduceAdd_def]
    exact Ideal.hostReduceAdd_total reducesTo_S2x1x1_S_d0_1_2 (fun b => b.elim0) v _ i
  unfold meanOf
  show Ideal.div (Host.reduceAdd (F := Ideal) v (constant (F := Ideal) S_ .f32 0x00000000#32) reducesTo_S2x1x1_S_d0_1_2 h_S_ i)
    (Ideal.ofBits .f32 0x4B000001#32) = _
  rw [hs]

/-- The two entries add up to the sum over all rows. -/
theorem sum_halves (c : Dev nD) :
    ∑ j : S2x1x1.Idx, halves m c j = total (argX m c) (argY m c) :=
  calc ∑ j : S2x1x1.Idx, halves m c j
      = ∑ p : Fin 2, acc (argX m c) (argY m c) (p.val * 8 + 7) :=
        Equiv.sum_comp halfEquiv (fun p : Fin 2 => acc (argX m c) (argY m c) (p.val * 8 + 7))
    _ = ∑ p ∈ Finset.range 2, acc (argX m c) (argY m c) (p * 8 + 7) :=
        Fin.sum_univ_eq_sum_range (fun p => acc (argX m c) (argY m c) (p * 8 + 7)) 2
    _ = total (argX m c) (argY m c) := halves_total (argX m c) (argY m c)

/-- So the kernel's result is the mean distance of its two argument arrays. -/
theorem kernel_value (c : Dev nD) (i : S_.Idx) : meanOf (halves m c) i = mean (argX m c) (argY m c) := by
  rw [meanOf_apply, Ideal.ofBits_zero_f32, zero_add, sum_halves]
  rfl

end Cert.KernelIdeal.Bridge

end
-- ==== Proof.RefValue.lean ====
/-
  The reference, read as a value.

  The reference takes the difference of the two arrays, squares it, sums each row's two squares from zero, takes the
  square root of every row sum, sums the 8388608 roots from zero and divides by 8388609: entry by entry that is the
  specification's mean. Adding to zero changes nothing.
-/
import proofs.«126171_j49331994362452_1_alg».proof.Proof.Gen.ReferenceIdeal.Read
import proofs.«126171_j49331994362452_1_alg».proof.Proof.DistSpec

open scoped BigOperators

noncomputable section

namespace Cert.ReferenceIdeal.RefValue

open Idealize.ShloMosaic Idealize.ShloMosaic.ValueIdx
open Cert.ReferenceIdeal Cert.ReferenceIdeal.Gen Cert.ReferenceIdeal.Read Cert.DistSpec

/-- The rows of a vector of 8388608 entries, as a finite type. -/
def rowEquiv : S8388608.Idx ≃ Fin 8388608 where
  toFun j := j 0
  invFun r := ix1 r
  left_inv j := (eq_ix1 j).symm
  right_inv _ := rfl

/-- Row r's entry of the vector of roots is the distance between the arrays' points r. -/
theorem root_apply (x y : Pts) (r : Fin 8388608) : val_main_v3 (F := Ideal) x y (ix1 r) = rowDist x y r := by
  rw [val_main_v3_apply, val_main_v2_apply, val_main_cst_apply]
  show Ideal.sqrt (Ideal.ofBits .f32 0x00000000#32 + ∑ k : Fin 2, val_main_v1 (F := Ideal) x y (idx_main_v2 (ix1 r) k)) = _
  rw [Ideal.ofBits_zero_f32, zero_add]
  unfold rowDist
  refine congrArg Ideal.sqrt (Finset.sum_congr rfl fun k _ => ?_)
  have e : idx_main_v2 (ix1 r) k = ix2 r k := funext fun a => Fin.ext (by match a with | ⟨0, _⟩ => rfl | ⟨1, _⟩ => rfl)
  rw [e]
  rfl

/-- The reference's result is the mean distance. -/
theorem result_apply (x y : Pts) (i : S_.Idx) : val_main_v5 (F := Ideal) x y i = mean x y := by
  rw [val_main_v5_apply, val_main_v4_apply, val_main_cst_1_apply, val_main_cst_0_apply]
  show Ideal.div (Ideal.ofBits .f32 0x00000000#32 + ∑ j : S8388608.Idx, val_main_v3 (F := Ideal) x y j) (Ideal.ofBits .f32 0x4B000001#32) = _
  have hs : ∑ j : S8388608.Idx, val_main_v3 (F := Ideal) x y j = total x y := by
    rw [← sum_rowDist, ← Equiv.sum_comp rowEquiv.symm]
    exact Finset.sum_congr rfl fun r _ => root_apply x y r
  rw [Ideal.ofBits_zero_f32, zero_add, hs]
  rfl

end Cert.ReferenceIdeal.RefValue

end
-- ==== Proof.lean ====
/-
  The mean Euclidean distance of 8388608 pairs of points of the plane, computed tile by tile, equals the reference's.

  The kernel cuts the rows into sixteen tiles of 524288, sums the distances sqrt((x0 - y0)^2 + (x1 - y1)^2) of a tile's
  rows, accumulates eight tiles' sums per half of the rows, adds the two halves and divides by 8388609; the reference sums
  the 8388608 distances at once and divides by the same number. On the extended reals both are one number, because a sum
  in a commutative monoid does not depend on how it is grouped: no finiteness of the inputs is needed for that, and the
  precondition is not opened. Both programs run to their ends from any memory and leave their arguments unchanged; the
  idealized kernel is the kernel's own text, no operation rewritten.
-/
import proofs.«126171_j49331994362452_1_alg».proof.Defs
import proofs.«126171_j49331994362452_1_alg».proof.Proof.Gen.Kernel
import proofs.«126171_j49331994362452_1_alg».proof.Proof.Gen.Kernel.Skeleton
import proofs.«126171_j49331994362452_1_alg».proof.Proof.Gen.Kernel.Launch
import proofs.«126171_j49331994362452_1_alg».proof.Proof.Gen.Kernel.Points
import proofs.«126171_j49331994362452_1_alg».proof.Proof.Gen.Kernel.Frame
import proofs.«126171_j49331994362452_1_alg».proof.Proof.Gen.KernelIdeal
import proofs.«126171_j49331994362452_1_alg».proof.Proof.Gen.KernelIdeal.Skeleton
import proofs.«126171_j49331994362452_1_alg».proof.Proof.Gen.KernelIdeal.Launch
import proofs.«126171_j49331994362452_1_alg».proof.Proof.Gen.KernelIdeal.Points
import proofs.«126171_j49331994362452_1_alg».proof.Proof.Gen.KernelIdeal.Frame
import proofs.«126171_j49331994362452_1_alg».proof.Proof.Gen.ReferenceIdeal
import proofs.«126171_j49331994362452_1_alg».proof.Proof.Gen.Pre_finite_inputs
import proofs.«126171_j49331994362452_1_alg».proof.Proof.Gen.ReferenceIdeal.Run
import proofs.«126171_j49331994362452_1_alg».proof.Proof.Gen.ReferenceIdeal.Read
import proofs.«126171_j49331994362452_1_alg».proof.Proof.Bridge
import proofs.«126171_j49331994362452_1_alg».proof.Proof.RefValue
import Idealize.ShloMosaic.Adequacy
import Idealize.ShloMosaic.Init

noncomputable section

namespace Cert.Proof

open Idealize.ShloMosaic Idealize.SL.Sem Cert.Kernel

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the two arrays both programs end with the mean distance of the arrays in their result. -/
theorem algebraic : Cert.algebraic_KernelIdeal_ReferenceIdeal := by
  intro m ρ m' ρ' _ hagree
  refine ⟨fun c => Cert.KernelIdeal.KernelRun.meanOf (Cert.KernelIdeal.KernelRun.halves m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  funext i
  exact (Cert.ReferenceIdeal.RefValue.result_apply _ _ i).trans (Cert.KernelIdeal.Bridge.kernel_value m c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
